-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : IVec S1600000 32) (main_arg2 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x64 : Shape := ⟨2, ![100000, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S10000x64 : Shape := ⟨2, ![10000, 64]⟩
abbrev S10000x1 : Shape := ⟨2, ![10000, 1]⟩

abbrev nBuf : Space → Nat
  | .hbm => 24
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x64, .f32⟩
  | .hbm, ⟨12, _⟩ => ⟨S_, .f32⟩
  | .hbm, ⟨13, _⟩ => ⟨S100000x64, .f32⟩
  | .hbm, ⟨14, _⟩ => ⟨S1600000x1, .i32⟩
  | .hbm, ⟨15, _⟩ => ⟨S100000x64, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S100000x1, .f32⟩
  | .hbm, ⟨23, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S10000x64, .f32⟩
  | .local _ .vmem, ⟨7, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 30
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x64, .f32⟩
  | .hbm, ⟨12, _⟩ => ⟨S_, .f32⟩
  | .hbm, ⟨13, _⟩ => ⟨S100000x64, .f32⟩
  | .hbm, ⟨14, _⟩ => ⟨S1600000x1, .i32⟩
  | .hbm, ⟨15, _⟩ => ⟨S100000x64, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .f32⟩
  | .hbm, ⟨28, _⟩ => ⟨S100000x64, .f32⟩
  | .hbm, ⟨29, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.KernelArray.lean ====
/-
  The kernel's output array as ONE function of the arrays its region finds.

  The region runs over 10 grid points; point t stages rows 10000·t … 10000·t + 9999 of three arrays — the features
  (100000 × 64), the neighbour sums (100000 × 64) and the degree column (100000 × 1) — and writes back the same rows of the
  output. Inside a block the body computes, at row r and lane l,
      feat[r, l] + summed[r, l] / max(deg[r, 0], 1),
  the degree's single column broadcast along the 64 lanes. Every block index map is (t, 0), so the element of each
  input that an output element reads sits at the SAME array row, and for the degree at column 0 of that row. Hence the
  whole output array is `residualMean feat summed deg`, read at an index i = (r, l) as
      feat i + summed i / max(deg (r, 0), 1),
  and the ten blocks (rows 10000·t …) tile the 100000 rows, so every index of the output is written.
-/
import proofs.«106177_j79070347919847_2_alg».proof.Proof.Gen.KernelIdeal.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Both offsets of the body's rectangles are zero: each load and the store take the whole block. -/
theorem offsets_zero : (![0, 0] : Fin 2 → Nat) = fun _ => 0 := funext fun a => by fin_cases a <;> rfl

/-- Row `r`'s entry of the degree column: the index `(r, 0)` of the 100000 × 1 array under the index `(r, l)`. -/
abbrev degAt (i : S100000x64.Idx) : S100000x1.Idx := fun a => match a with
  | ⟨0, _⟩ => ⟨(i 0).val, (i 0).isLt⟩
  | ⟨1, _⟩ => ⟨0, Nat.one_pos⟩

/-- The residual plus the neighbour mean, index by index: `feat i + summed i / max(deg (row of i, 0), 1)`. -/
abbrev residualMean (feat summed : S100000x64.Idx → Elt F .f32) (deg : S100000x1.Idx → Elt F .f32) : S100000x64.Idx → Elt F .f32 :=
  fun i => FloatOps.addf (feat i) (FloatOps.divf (summed i) (FloatOps.maximumf (deg (degAt i)) (Scalar.ofBits .f32 0x3F800000#32)))

/-- The printed index maps, decided over the ten grid points: every window's block row index is the output's, every block
    column index is 0, and the output's block row index is at most 9. -/
theorem index_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = win0_3.index t (0 : Fin 2)
    ∧ win0_2.index t (1 : Fin 2) = 0
    ∧ win0_3.index t (0 : Fin 2) ≤ 9
    ∧ win0_3.index t (1 : Fin 2) = 0 :=
  (by decide +kernel : ∀ t : Fin grid0.N, _)

/-- Every block row index 0 … 9 is some grid point's. -/
theorem index_onto : ∀ q : Fin 10, ∃ t : Fin cfg0.N, win0_3.index t = ![q.val, 0] :=
  (by decide +kernel : ∀ q : Fin 10, ∃ t : Fin grid0.N, win0_3.index t = ![q.val, 0])

/-- WHAT POINT `t` WRITES BACK is block `t` of `residualMean` of the three arrays as the region finds them: the body's
    block is one index-by-index function of its loads (the generated `canon3_eq`), and each load's element sits in its array
    at the row of the output element, the degree's at column 0. -/
theorem flushed_eq (c : Dev nD) (t : Fin cfg0.N) :
    (dats m 0 c).flushed 3 t
      = ((cfg0.win 3).blk t).view.read (Elt F) (residualMean (V m c main_arg0) (V m c main_v9) (V m c main_v14)) := by
  rw [flushed3]
  unfold out0_3
  simp only [View.ld_unit_zero (S := S10000x64) offsets_zero, View.ld_unit_zero (S := S10000x1) offsets_zero]
  obtain ⟨e0, e1, e2, e3, e4, e5, e6, e7⟩ := index_facts t
  funext j
  have hj0 : (j 0).val < 10000 := (j 0).isLt
  have hj1 : (j 1).val < 64 := (j 1).isLt
  refine (canon3_eq (iblk m c 0 t) (iblk m c 1 t) (iblk m c 2 t) j).trans ?_
  show FloatOps.addf (V m c main_arg0 (((cfg0.win 0).blk t).view.emb (ix3_0 j)))
      (FloatOps.divf (V m c main_v9 (((cfg0.win 1).blk t).view.emb (ix3_1 j)))
        (FloatOps.maximumf (V m c main_v14 (((cfg0.win 2).blk t).view.emb (ix3_2 j))) (Scalar.ofBits .f32 0x3F800000#32)))
    = FloatOps.addf (V m c main_arg0 (((cfg0.win 3).blk t).view.emb j))
      (FloatOps.divf (V m c main_v9 (((cfg0.win 3).blk t).view.emb j))
        (FloatOps.maximumf (V m c main_v14 (degAt (((cfg0.win 3).blk t).view.emb j))) (Scalar.ofBits .f32 0x3F800000#32)))
  have h0 : ((cfg0.win 0).blk t).view.emb (ix3_0 j) = ((cfg0.win 3).blk t).view.emb j := by
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 64 + 1 * (j 1).val = win0_3.index t (1 : Fin 2) * 64 + 1 * (j 1).val; omega
  have h1 : ((cfg0.win 1).blk t).view.emb (ix3_1 j) = ((cfg0.win 3).blk t).view.emb j := by
    funext a; apply Fin.ext
    match a with
    | ⟨0, _⟩ => show win0_1.index t (0 : Fin 2) * 10000 + 1 * (j 0).val = win0_3.index t (0 : Fin 2) * 10000 + 1 * (j 0).val; omega
    | ⟨1, _⟩ => show win0_1.index t (1 : Fin 2) * 64 + 1 * (j 1).val = win0_3.index t (1 : Fin 2) * 64 + 1 * (j 1).val; omega
  have h2 : ((cfg0.win 2).blk t).view.emb (ix3_2 j) = degAt (((cfg0.win 3).blk t).view.emb j) := by
    funext a; apply Fin.ext
    match a with
    | ⟨0, _⟩ => show win0_2.index t (0 : Fin 2) * 10000 + 1 * (j 0).val = win0_3.index t (0 : Fin 2) * 10000 + 1 * (j 0).val; omega
    | ⟨1, _⟩ => show win0_2.index t (1 : Fin 2) * 1 + 1 * 0 = 0; omega
  rw [h0, h1, h2]

/-- An index of the output array is in point `t`'s block iff each coordinate is in the block's range on its axis. -/
theorem mem_blk (t : Fin cfg0.N) (i : S100000x64.Idx) :
    i ∈ ((cfg0.win 3).blk t).view.set
      ↔ ∀ a : Fin 2, win0_3.index t a * S10000x64.size a ≤ (i a).val ∧ (i a).val < win0_3.index t a * S10000x64.size a + S10000x64.size a := by
  show i ∈ ((View.whole main_v15).slice (win0_3.rect t)).set ↔ _
  rw [View.set_slice_whole, Rect.mem_set_unit]
  exact Iff.rfl

/-- THE BLOCKS TILE THE ARRAY: row `r` is in the block of the point whose block row index is `r / 10000`. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := index_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE OUTPUT ARRAY after the run is `residualMean` of the three arrays as the region finds them, at every index. -/
theorem final (c : Dev nD) :
    (dats m 0 c).arrAt 3 cfg0.N = residualMean (V m c main_arg0) (V m c main_v9) (V m c main_v14) :=
  (dats m 0 c).arrAt_eq_of_cover 3 _ (fun t _ => flushed_eq m c t) covered

end Cert.KernelIdeal.Whole

end
-- ==== Proof.HostPrefix.lean ====
/-
  What the region finds in its second and third arrays, and the kernel's run read as a function of the arguments.

  Before the region @main computes, from the features `x0`, the edge rows `x1` and the edge columns `x2`:
    * the neighbour sums — the feature rows gathered at the columns (a negative column wrapped by adding 100000),
      scatter-added into a zero 100000 × 64 array at the rows —, `neighbourSum x0 x1 x2`;
    * the degrees — ones scatter-added into a zero vector of length 100000 at the rows —, `degree x1`, laid out as a
      100000 × 1 column.
  The region then finds the features as launched, the neighbour sums and the degree column; neither the gather nor
  the scatter-add is ever opened here: both are kept as the terms the program prints. With the whole-array form of the
  output (`final`) the run ends with the result at
      residualMean x0 (neighbourSum x0 x1 x2) (column of (degree x1)).
-/
import proofs.«106177_j79070347919847_2_alg».proof.Proof.KernelArray
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem
open Idealize.ShloMosaic.StableHlo

variable {F : FTy → Type} [FloatOps F]

/-- The neighbour sums: feature rows gathered at the (wrapped) columns and scatter-added at the rows into zeros. -/
def neighbourSum (x0 : (⟨S100000x64, .f32⟩ : BufTy).Contents (Elt F)) (x1 x2 : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 x1)
    (Host.gather gather_S100000x64_S1600000x1_S1600000x64_1_0_n_n_0_1_164 x0
      (broadcastInDim S1600000x1 ![0] bcast_S1600000_S1600000x1_0
        (select (cmpi .slt x2 (broadcastInDim S1600000 ![] bcast_S_S1600000 (constantI S_ 32 0#32)))
          (addi x2 (broadcastInDim S1600000 ![] bcast_S_S1600000 (constantI S_ 32 100000#32))) x2)))

/-- The degrees: ones scatter-added at the rows into zeros. -/
def degree (x1 : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 x1)
    (broadcastInDim S1600000 ![] bcast_S_S1600000 (constant (F := F) S_ .f32 0x3F800000#32))

/-- The degrees as a 100000 × 1 column. -/
def degreeColumn (x1 : (⟨S1600000, .i32⟩ : BufTy).Contents (Elt F)) : (⟨S100000x1, .f32⟩ : BufTy).Contents (Elt F) :=
  broadcastInDim S100000x1 ![0] bcast_S100000_S100000x1_0 (degree x1)

/-- Row `r` of the length-100000 vector under the index `(r, l)`. -/
abbrev rowAt (i : S100000x64.Idx) : S100000.Idx := fun a => match a with
  | ⟨0, _⟩ => ⟨(i 0).val, (i 0).isLt⟩

/-- The degree column at `(r, 0)` is the degree of row `r`. -/
theorem degreeColumn_apply (x1 : (⟨S1600000, .i32⟩ : BufTy).Contents (Elt F)) (i : S100000x64.Idx) :
    degreeColumn x1 (degAt i) = degree x1 (rowAt i) := by
  unfold degreeColumn
  generalize degree x1 = y
  exact broadcastInDim_apply _ bcast_S100000_S100000x1_0 y (degAt i) (rowAt i) (fun a => match a with
    | ⟨0, _⟩ => by show (i 0).val = if (100000 : Nat) = 1 then 0 else (i 0).val; rw [if_neg (by decide)])

variable (m : (ℓ : Loc nD τ sig) → Buf (Elt F) ℓ) (ρ : Dev nD → PrngReg)

/-- The region finds the neighbour sums of the arguments in its second array. -/
theorem V_main_v9 (c : Dev nD) :
    V m c main_v9 = neighbourSum (m ((c : Thread nD τ).loc main_arg0)) (m ((c : Thread nD τ).loc main_arg1)) (m ((c : Thread nD τ).loc main_arg2)) := by
  unfold V; after_results; rfl

/-- The region finds the degree column of the edge rows in its third array. -/
theorem V_main_v14 (c : Dev nD) :
    V m c main_v14 = degreeColumn (m ((c : Thread nD τ).loc main_arg1)) := by
  unfold V; after_results; rfl

/-- THE KERNEL'S RUN: every weakly fair execution terminates with the result at the residual plus the neighbour mean of
    the arguments, and the arguments unchanged. -/
theorem run : θ_run defs (onTc (τ := τ) (main (F := F))) ⟨m, fun _ => 0, ρ⟩ fun r => ∀ c : Dev nD,
      r.2.mem ((c : Thread nD τ).loc main_v15)
        = residualMean (m ((c : Thread nD τ).loc main_arg0))
            (neighbourSum (m ((c : Thread nD τ).loc main_arg0)) (m ((c : Thread nD τ).loc main_arg1)) (m ((c : Thread nD τ).loc main_arg2)))
            (degreeColumn (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [V_main_arg0, V_main_v9, V_main_v14])), (h c).2⟩)
    (run_blocks m ρ)

end Cert.KernelIdeal.Whole

end
-- ==== Proof.SameFunction.lean ====
/-
  The reference computes the same function of the arguments.

  The reference program makes the neighbour sums and the degrees by the very operations the kernel's program makes them
  with, then, index by index at `i = (r, l)`,
      x0 i + neighbourSum i / max(1, degree r),
  the clipped degree broadcast first to a column and then along the 64 lanes, where the kernel's array holds
      x0 i + neighbourSum i / max(degree r, 1).
  On the extended reals `max` is commutative and the kernel's division and the host's division are one operation, so
  the two arrays are equal at every index — with no condition on the inputs: nothing is cancelled or distributed.
-/
import proofs.«106177_j79070347919847_2_alg».proof.Proof.HostPrefix
import proofs.«106177_j79070347919847_2_alg».proof.Proof.Gen.ReferenceIdeal.Read
import Idealize.ShloMosaic.PureOps.Ideal

noncomputable section

namespace Cert.ReferenceIdeal.Same

open Idealize.ShloMosaic Idealize.ShloMosaic.TcCoe Idealize.SL.Sem
open Cert.ReferenceIdeal Cert.ReferenceIdeal.Read
open Cert.KernelIdeal.Whole (neighbourSum degree degreeColumn residualMean degAt rowAt degreeColumn_apply)

/-- The reference's neighbour sums are the kernel program's: the same gather and scatter-add of the same operands. -/
theorem sums_eq (x0 : (⟨S100000x64, .f32⟩ : BufTy).Contents (Elt Ideal)) (x1 x2 : (⟨S1600000, .i32⟩ : BufTy).Contents (Elt Ideal)) :
    val_main_v9 (F := Ideal) x0 x1 x2 = neighbourSum (F := Ideal) x0 x1 x2 := rfl

/-- The reference's degrees are the kernel program's. -/
theorem degrees_eq (x1 : (⟨S1600000, .i32⟩ : BufTy).Contents (Elt Ideal)) :
    val_main_v13 (F := Ideal) x1 = degree (F := Ideal) x1 := rfl

/-- The row the reference's two broadcasts read the clipped degree at is the row of the index. -/
theorem row_eq (i : S100000x64.Idx) : idx_main_v15 (idx_main_v16 i) = rowAt i :=
  funext fun a => Fin.ext (by match a with | ⟨0, _⟩ => rfl)

/-- THE REFERENCE'S RESULT IS THE KERNEL'S: index by index both are `x0 i + neighbourSum i / max(degree r, 1)`. -/
theorem result_eq (x0 : (⟨S100000x64, .f32⟩ : BufTy).Contents (Elt Ideal)) (x1 x2 : (⟨S1600000, .i32⟩ : BufTy).Contents (Elt Ideal)) :
    val_main_v18 (F := Ideal) x0 x1 x2
      = residualMean (F := Ideal) x0 (neighbourSum (F := Ideal) x0 x1 x2) (degreeColumn (F := Ideal) x1) := by
  funext i
  rw [val_main_v18_apply, val_main_v17_apply, val_main_v16_apply, val_main_v15_apply, val_main_v14_apply,
    val_main_call0_v1_apply, val_main_call0_v0_apply, val_main_cst_3_apply, row_eq, sums_eq, degrees_eq]
  show FloatOps.addf (F := Ideal) (φ := .f32) (x0 i) (FloatOps.hostDivf (F := Ideal) (φ := .f32) (neighbourSum (F := Ideal) x0 x1 x2 i)
        (FloatOps.maximumf (F := Ideal) (φ := .f32) (FloatOps.ofBits (F := Ideal) .f32 0x3F800000#32) (degree (F := Ideal) x1 (rowAt i))))
    = FloatOps.addf (F := Ideal) (φ := .f32) (x0 i) (FloatOps.divf (F := Ideal) (φ := .f32) (neighbourSum (F := Ideal) x0 x1 x2 i)
        (FloatOps.maximumf (F := Ideal) (φ := .f32) (degreeColumn (F := Ideal) x1 (degAt i)) (FloatOps.ofBits (F := Ideal) .f32 0x3F800000#32)))
  rw [degreeColumn_apply]
  show x0 i + Ideal.div (neighbourSum (F := Ideal) x0 x1 x2 i)
        (max (FloatOps.ofBits (F := Ideal) .f32 0x3F800000#32) (degree (F := Ideal) x1 (rowAt i)))
    = x0 i + Ideal.div (neighbourSum (F := Ideal) x0 x1 x2 i)
        (max (degree (F := Ideal) x1 (rowAt i)) (FloatOps.ofBits (F := Ideal) .f32 0x3F800000#32))
  rw [max_comm]

end Cert.ReferenceIdeal.Same

end
-- ==== Proof.lean ====
/-
  Sparse mean aggregation with a residual: out = features + (Σ over edges (r, c) of features[c]) / max(deg(r), 1).

  Both programs first form, on the host and by the same operations, the neighbour sums (feature rows gathered at the edge
  columns and scatter-added at the edge rows) and the degrees (ones scatter-added at the edge rows). They differ only in
  the last step. The kernel tiles the 100000 rows into ten blocks of 10000 and, per block, adds to the features the
  neighbour sums divided by the degree column clipped below at 1 and broadcast along the 64 lanes; the reference clips the
  degree vector, broadcasts it to the full 100000 × 64 shape, divides and adds. At every index `(r, l)` both are

      features[r, l] + neighbourSum[r, l] / max(degree[r], 1)

  over the extended reals: the kernel's ten blocks tile the array and each element reads its operands at its own row
  (`KernelArray`), the arrays the kernel's region finds are the host terms of the arguments (`HostPrefix`), and the
  reference's term is that same function because `max` is commutative (`SameFunction`). No step cancels, distributes
  or moves a factor, so finiteness of the inputs is never used.

  The three frames are the generated ones (the reference's is its generated run with the result dropped); the
  idealization rewrote nothing, so `preserves` is `True`.
-/
import proofs.«106177_j79070347919847_2_alg».proof.Defs
import proofs.«106177_j79070347919847_2_alg».proof.Proof.Gen.Kernel
import proofs.«106177_j79070347919847_2_alg».proof.Proof.Gen.Kernel.Skeleton
import proofs.«106177_j79070347919847_2_alg».proof.Proof.Gen.Kernel.Launch
import proofs.«106177_j79070347919847_2_alg».proof.Proof.Gen.Kernel.Points
import proofs.«106177_j79070347919847_2_alg».proof.Proof.Gen.Kernel.Frame
import proofs.«106177_j79070347919847_2_alg».proof.Proof.Gen.KernelIdeal
import proofs.«106177_j79070347919847_2_alg».proof.Proof.Gen.KernelIdeal.Skeleton
import proofs.«106177_j79070347919847_2_alg».proof.Proof.Gen.KernelIdeal.Launch
import proofs.«106177_j79070347919847_2_alg».proof.Proof.Gen.KernelIdeal.Points
import proofs.«106177_j79070347919847_2_alg».proof.Proof.Gen.KernelIdeal.Frame
import proofs.«106177_j79070347919847_2_alg».proof.Proof.Gen.KernelIdeal.Value
import proofs.«106177_j79070347919847_2_alg».proof.Proof.Gen.ReferenceIdeal
import proofs.«106177_j79070347919847_2_alg».proof.Proof.Gen.ReferenceIdeal.Run
import proofs.«106177_j79070347919847_2_alg».proof.Proof.Gen.ReferenceIdeal.Read
import proofs.«106177_j79070347919847_2_alg».proof.Proof.Gen.Pre_finite_inputs
import proofs.«106177_j79070347919847_2_alg».proof.Proof.KernelArray
import proofs.«106177_j79070347919847_2_alg».proof.Proof.HostPrefix
import proofs.«106177_j79070347919847_2_alg».proof.Proof.SameFunction
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the kernel ends with its result at the residual plus the neighbour mean of the
    arguments, and the reference at its own term of the same arguments, which is that function index by index. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v18_eq (F := Ideal) _ _ _).trans (Cert.ReferenceIdeal.Same.result_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
